-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) (main_arg1 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S2048x256 : Shape := ⟨2, ![2048, 256]⟩
abbrev S1x2048 : Shape := ⟨2, ![1, 2048]⟩
abbrev S2048 : Shape := ⟨1, ![2048]⟩
abbrev S2048x1 : Shape := ⟨2, ![2048, 1]⟩
abbrev S4x8x128 : Shape := ⟨3, ![4, 8, 128]⟩
abbrev S512x256 : Shape := ⟨2, ![512, 256]⟩
abbrev S1x8x128 : Shape := ⟨3, ![1, 8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S4 : Shape := ⟨1, ![4]⟩
abbrev S_ : Shape := ⟨0, ![]⟩

abbrev nBuf : Space → Nat
  | .hbm => 11
  | .vmem => 11
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S1x2048, .f32⟩
  | .hbm, ⟨3, _⟩ => ⟨S1x2048, .f32⟩
  | .hbm, ⟨4, _⟩ => ⟨S4x8x128, .f32⟩
  | .hbm, ⟨5, _⟩ => ⟨S4x1x1, .f32⟩
  | .hbm, ⟨6, _⟩ => ⟨S4, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S1x2048, .f32⟩
  | .local _ .vmem, ⟨3, _⟩ => ⟨S1x2048, .f32⟩
  | .local _ .vmem, ⟨4, _⟩ => ⟨S512x256, .f32⟩
  | .local _ .vmem, ⟨5, _⟩ => ⟨S512x256, .f32⟩
  | .local _ .vmem, ⟨6, _⟩ => ⟨S2048x256, .f32⟩
  | .local _ .vmem, ⟨7, _⟩ => ⟨S1x2048, .f32⟩
  | .local _ .vmem, ⟨8, _⟩ => ⟨S1x2048, .f32⟩
  | .local _ .vmem, ⟨9, _⟩ => ⟨S1x8x128, .f32⟩
  | .local _ .vmem, ⟨10, _⟩ => ⟨S1x8x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  transposes_S2048x1_p1_0_S1x2048 : S2048x1.Transposes [1, 0] S1x2048
  inb_S1x2048_S1x2048_0_0 : ∀ a, (![0, 0] : Fin 2 → Nat) a + S1x2048.size a ≤ S1x2048.size a
  h_S1x2048 : 0 < S1x2048.numel
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  reduces_S512x256_S512 : S512x256.Reduces [1] S512
  shapeCasts_S512_S512x1 : S512.ShapeCasts S512x1
  shapeCasts_S1x2048_S1x2048 : S1x2048.ShapeCasts S1x2048
  broadcasts_S512x1_S512x2048 : S512x1.Broadcasts S512x2048
  broadcasts_S1x2048_S512x2048 : S1x2048.Broadcasts S512x2048
  iota_S512x2048_d0_w32 : S512x2048.Iotas .tc 32 [0]
  iota_S512x2048_d1_w32 : S512x2048.Iotas .tc 32 [1]
  reduces_S512x2048_S512 : S512x2048.Reduces [1] S512
  reduces_S512x1_S1 : S512x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S4x8x128_S4x1x1_0_0_0 : S4x8x128.Slices ![0, 0, 0] S4x1x1
  shapeCasts_S4x1x1_S4 : S4x1x1.ShapeCasts S4
  reducesTo_S4_S_d0 : S4.ReducesTo [0] S_
  h_S_ : 0 < S_.numel
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x256.size a
  hwx0_0 : ∀ i : grid0.Coords, EltTy.bits .f32 = 32 ∨ (Rect.block (s := S2048x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S2048x256.size a
  hwx1_0 : ∀ i : grid1.Coords, EltTy.bits .f32 = 32 ∨ (Rect.block (s := S2048x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x256.size a
  hwx1_1 : ∀ i : grid1.Coords, EltTy.bits .f32 = 32 ∨ (Rect.block (s := S2048x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x128.size a ≤ S4x8x128.size a
  hwx1_4 : ∀ i : grid1.Coords, EltTy.bits .f32 = 32 ∨ (Rect.block (s := S4x8x128) S1x8x128.size (cc1_transform_4 i) (hinb1_4 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_arg0) S2048x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x2048.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x8x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x256 : Shape := ⟨2, ![2048, 256]⟩
abbrev S_ : Shape := ⟨0, ![]⟩
abbrev S2048 : Shape := ⟨1, ![2048]⟩
abbrev S2048x2048 : Shape := ⟨2, ![2048, 2048]⟩
abbrev S2048x1 : Shape := ⟨2, ![2048, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048x256, .f32⟩
  | .hbm, ⟨8, _⟩ => ⟨S_, .f32⟩
  | .hbm, ⟨9, _⟩ => ⟨S2048, .f32⟩
  | .hbm, ⟨10, _⟩ => ⟨S2048x256, .f32⟩
  | .hbm, ⟨11, _⟩ => ⟨S_, .f32⟩
  | .hbm, ⟨12, _⟩ => ⟨S2048, .f32⟩
  | .hbm, ⟨13, _⟩ => ⟨S2048x2048, .f32⟩
  | .hbm, ⟨14, _⟩ => ⟨S2048x1, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .i32⟩
  | .hbm, ⟨34, _⟩ => ⟨S2048x2048, .i32⟩
  | .hbm, ⟨35, _⟩ => ⟨S_, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_cst : Ref sig .tc := ⟨.hbm, 44, rfl⟩
abbrev main_call0_v0 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  reducesTo_S2048x2048_S2048_d1 : S2048x2048.ReducesTo [1] S2048
  bcast_S_S2048 : S_.BroadcastsInDim S2048 (![] : Fin 0 → Fin S2048.rank)
  reducesTo_S2048_S_d0 : S2048.ReducesTo [0] S_
  dot_S2048x256_S2048x256_S2048x2048_1_1_0_0_n_n_wf : DotDims.WF S2048x256 S2048x256 S2048x2048 [1] [1] [0] [0] [] []

variable [Facts₀]

def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf

class Facts : Prop extends Facts₀ where

variable [Facts]
-- ==== Proof.KernelRun.lean ====
/-
  The idealized kernel program's run with EVERY unscoped buffer's final contents named.

  The program is two pipelined regions followed by six host lines. Its buffers' contents at the segment boundaries are a
  fold from the launch memory: `W1` after the first region (its two result rows at what its one grid point writes back),
  `W2` after the second (the 4×8×128 table of tile totals at what its four points write back), `W3` after the host
  lines. `run_bufs` is the launch of that chain of segments — the same segments, thread state and launch obligations as the
  frame's own run — keeping the whole final valuation `W3` instead of the two argument arrays only; `run_value` reads the
  result buffer and the two arguments off it.
-/
import proofs.«100635_j75943611728236_2_alg».proof.Proof.FrameKernelIdeal

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with every unscoped buffer of every core at the
    last boundary's contents `W3`. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The result buffer ends at `W3`'s contents of it, and the two argument arrays end as launched. -/
theorem run_value : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v5 (by decide)),
     (h c _ (mem_uc main_arg0 (by decide))).trans (W3_main_arg0 m ρ c),
     (h c _ (mem_uc main_arg1 (by decide))).trans (W3_main_arg1 m ρ c)⟩) (run_bufs m ρ)

end Cert.KernelIdeal.Whole

end
-- ==== Proof.LibTiledSum.lean ====
/-
  Sums over tiles of consecutive numbers, with a masked tail; and the signed maximum and minimum of two words.

  `sum_tiles`: a sum over `a` tiles of `b` consecutive numbers is the sum over the first `a * b` numbers.
  `sum_head`: a sum over `n + k` numbers of a function that vanishes from `n` on is the sum over the first `n`.
  `sum_tiles_head`: the tiles cover at least `n` numbers; the numbers from `n` on count zero; the total is the sum
  over the first `n` — the shape of a reduction over a padded array whose padding rows are masked before each tile is
  summed. All three hold in any commutative monoid (so on the extended reals, with no finiteness).
  `maxsi_comm`, `minsi_comm`: the signed maximum and minimum of two words of any width do not depend on the order of
  the operands (a clip written `max(x, lo)` on one side and `max(lo, x)` on the other).
-/
import Idealize.ShloMosaic.PureOps.Ideal

noncomputable section

namespace Cert.TiledSum

open Idealize.ShloMosaic

/-- A sum over `a` tiles of `b` consecutive numbers is the sum over the first `a * b` numbers. -/
theorem sum_tiles {M : Type*} [AddCommMonoid M] (a b : ℕ) (f : ℕ → M) :
    ∑ t : Fin a, ∑ r : Fin b, f (t.val * b + r.val) = ∑ n : Fin (a * b), f n.val := by
  rw [← Equiv.sum_comp finProdFinEquiv (fun n : Fin (a * b) => f n.val), Fintype.sum_prod_type]
  refine Finset.sum_congr rfl fun t _ => Finset.sum_congr rfl fun r _ => ?_
  congr 1
  show t.val * b + r.val = r.val + b * t.val
  rw [Nat.mul_comm, Nat.add_comm]

/-- A sum over `n + k` numbers of a function that vanishes from `n` on is the sum over the first `n`. -/
theorem sum_head {M : Type*} [AddCommMonoid M] (n k : ℕ) (f : ℕ → M) (hf : ∀ i, n ≤ i → f i = 0) :
    ∑ i : Fin (n + k), f i.val = ∑ i : Fin n, f i.val := by
  rw [Fin.sum_univ_add]
  have : ∑ i : Fin k, f (Fin.natAdd n i).val = 0 :=
    Finset.sum_eq_zero fun i _ => hf _ (by simp only [Fin.coe_natAdd]; omega)
  rw [this, add_zero]
  rfl

/-- `a` tiles of `b` numbers cover the first `n` numbers; the numbers from `n` on count zero: the tiles' sums add up to
    the sum over the first `n`. -/
theorem sum_tiles_head {M : Type*} [AddCommMonoid M] (a b n : ℕ) (hn : n ≤ a * b) (F : Fin n → M) :
    ∑ t : Fin a, ∑ r : Fin b, (if h : t.val * b + r.val < n then F ⟨t.val * b + r.val, h⟩ else 0)
      = ∑ i : Fin n, F i := by
  have h1 := sum_tiles a b (fun i => if h : i < n then F ⟨i, h⟩ else 0)
  have h2 := sum_head n (a * b - n) (fun i => if h : i < n then F ⟨i, h⟩ else 0) (fun i hi => dif_neg (by omega))
  have h3 : ∑ i : Fin (a * b), (fun i => if h : i < n then F ⟨i, h⟩ else 0) i.val
      = ∑ i : Fin (n + (a * b - n)), (fun i => if h : i < n then F ⟨i, h⟩ else 0) i.val :=
    Fintype.sum_equiv (finCongr (by omega)) _ _ (fun _ => rfl)
  refine (h1.trans (h3.trans h2)).trans (Finset.sum_congr rfl fun i _ => ?_)
  exact dif_pos i.isLt

/-- The signed maximum of two words does not depend on the order of the operands. -/
theorem maxsi_comm {w : ℕ} (a b : BitVec w) : IntOp.maxsi a b = IntOp.maxsi b a := by
  unfold IntOp.maxsi
  by_cases h1 : b.slt a = true <;> by_cases h2 : a.slt b = true
  · rw [BitVec.slt, decide_eq_true_eq] at h1 h2; omega
  · rw [if_pos h1, if_neg h2]
  · rw [if_neg h1, if_pos h2]
  · rw [if_neg h1, if_neg h2]
    rw [BitVec.slt, decide_eq_true_eq] at h1 h2
    exact BitVec.eq_of_toInt_eq (by omega)

/-- The signed minimum of two words does not depend on the order of the operands. -/
theorem minsi_comm {w : ℕ} (a b : BitVec w) : IntOp.minsi a b = IntOp.minsi b a := by
  unfold IntOp.minsi
  by_cases h1 : a.slt b = true <;> by_cases h2 : b.slt a = true
  · rw [BitVec.slt, decide_eq_true_eq] at h1 h2; omega
  · rw [if_pos h1, if_neg h2]
  · rw [if_neg h1, if_pos h2]
  · rw [if_neg h1, if_neg h2]
    rw [BitVec.slt, decide_eq_true_eq] at h1 h2
    exact BitVec.eq_of_toInt_eq (by omega)

end Cert.TiledSum

end
-- ==== Proof.Spec.lean ====
/-
  The triplet loss on the extended reals, as ONE function of the two argument matrices (2048 rows of 256 entries:
  the sketches `s` and the photos `p`), and the laws that join the two programs' arrangements of it.

  For a sketch `j` its own photo lies at the distance `dist j = √(Σ_k (s_jk − p_jk)²)`; photo `i` lies from sketch `j`
  at `far i j = √(max(|p_i|² + |s_j|² − 2·p_i·s_j, 0))`. Entry `(i, j)` of the loss table is the hinge
  `max(dist j + margin − far i j, 0)` off the diagonal and `0` on it; the loss is the mean of the 2048 × 2048 table.

  One program adds the margin to `dist` before subtracting `far`, clears the diagonal by a selection and divides the
  grand total by 2048² once; the other adds the margin last, clears the diagonal by multiplying with `1 − eye` and takes
  the mean of the rows' means. The three laws:
    · `(a − b) + m = (a + m) − b` — the extended reals are a commutative monoid under `+` and `a − b = a + (−b)`;
    · `x · (1 − 1) = 0` and `x · (1 − 0) = x` for EVERY extended real `x` (`x · 0 = 0` also at the infinities);
    · a multiplier that is a non-negative real distributes over any finite sum of extended reals, so the mean of the
      rows' means is the grand total times `(1/2048)·(1/2048) = 1/2048²`.
  None of them asks any entry to be finite.
-/
import Idealize.ShloMosaic.PureOps.Ideal
import Idealize.ShloMosaic.Lib.ValueIdx
import proofs.«100635_j75943611728236_2_alg».proof.Proof.LibTiledSum

noncomputable section

open scoped BigOperators

namespace Cert.Triplet

open Idealize.ShloMosaic Idealize.ShloMosaic.ValueIdx

/-- A matrix of 2048 rows of 256 extended reals. -/
abbrev Mat : Type := (⟨2, ![2048, 256]⟩ : Shape).Idx → EReal

/-! ## The float words the programs spell -/

/-- The margin: the f32 word nearest to 0.3, whatever real it denotes — the same word in both programs. -/
def margin : EReal := Ideal.ofBits .f32 0x3E99999A#32
/-- The factor of the inner product: the f32 word of 2, the same word in both programs. -/
def two : EReal := Ideal.ofBits .f32 0x40000000#32

theorem ofBits_zero : Ideal.ofBits .f32 0x00000000#32 = 0 := by
  simp [Ideal.ofBits, Ideal.ieee]
theorem ofBits_one : Ideal.ofBits .f32 0x3F800000#32 = 1 := by
  simp [Ideal.ofBits, Ideal.ieee, -EReal.coe_mul]; norm_num
theorem ofBits_2048 : Ideal.ofBits .f32 0x45000000#32 = ((2048 : ℝ) : EReal) := by
  simp [Ideal.ofBits, Ideal.ieee, -EReal.coe_mul]; norm_num
theorem ofBits_4194304 : Ideal.ofBits .f32 0x4A800000#32 = ((4194304 : ℝ) : EReal) := by
  simp [Ideal.ofBits, Ideal.ieee, -EReal.coe_mul]; norm_num

/-! ## The table -/

/-- The squared length of row `i`. -/
def sq (x : Mat) (i : Fin 2048) : EReal := ∑ k : Fin 256, x (ix2 i k) * x (ix2 i k)
/-- The distance from sketch `j` to its own photo. -/
def dist (s p : Mat) (j : Fin 2048) : EReal :=
  Ideal.sqrt (∑ k : Fin 256, (s (ix2 j k) - p (ix2 j k)) * (s (ix2 j k) - p (ix2 j k)))
/-- The inner product of photo `i` and sketch `j`. -/
def cross (s p : Mat) (i j : Fin 2048) : EReal := ∑ k : Fin 256, p (ix2 i k) * s (ix2 j k)
/-- The distance from photo `i` to sketch `j`, by the expanded square cut at zero. -/
def far (s p : Mat) (i j : Fin 2048) : EReal := Ideal.sqrt (max (sq p i + sq s j - two * cross s p i j) 0)
/-- Entry `(i, j)` with the margin added to the own distance first and the diagonal cleared by a selection. -/
def hinge (s p : Mat) (i j : Fin 2048) : EReal := max (if i = j then 0 else dist s p j + margin - far s p i j) 0
/-- Entry `(i, j)` with the margin added last and the diagonal cleared by a product with `1 − eye`. -/
def hingeMul (s p : Mat) (i j : Fin 2048) : EReal :=
  max ((dist s p j - far s p i j + margin) * (1 - (if i = j then (1 : EReal) else 0))) 0

/-- The two spellings of an entry are one extended real. -/
theorem hingeMul_eq_hinge (s p : Mat) (i j : Fin 2048) : hingeMul s p i j = hinge s p i j := by
  unfold hingeMul hinge
  by_cases h : i = j
  · rw [if_pos h, if_pos h]
    have e : (1 : EReal) - 1 = 0 := EReal.sub_self (by decide) (by decide)
    rw [e, mul_zero]
  · rw [if_neg h, if_neg h, sub_zero, mul_one]
    congr 1
    rw [sub_eq_add_neg, sub_eq_add_neg, add_right_comm]

/-- The total of row `i` of the table. -/
def rowLoss (s p : Mat) (i : Fin 2048) : EReal := ∑ j : Fin 2048, hinge s p i j

/-- The loss: the grand total over 2048². -/
def loss (s p : Mat) : EReal := (∑ i : Fin 2048, rowLoss s p i) * ((1 / 4194304 : ℝ) : EReal)

/-! ## The mean of the means -/

/-- A sum over the indices of a vector is the sum over its one coordinate. -/
theorem sum_idx1 {M : Type*} [AddCommMonoid M] {n : ℕ} (f : (⟨1, ![n]⟩ : Shape).Idx → M) :
    ∑ j, f j = ∑ i : Fin n, f (ix1 i) :=
  Fintype.sum_equiv ⟨fun j => j 0, ix1, fun j => (eq_ix1 j).symm, fun _ => rfl⟩ f (fun i => f (ix1 i))
    (fun j => congrArg f (eq_ix1 j))

/-- A non-negative real multiplier distributes over any finite sum of extended reals. -/
theorem sum_mul_real {ι : Type*} (S : Finset ι) (f : ι → EReal) (c : ℝ) (hc : 0 ≤ c) :
    ∑ i ∈ S, f i * (c : EReal) = (∑ i ∈ S, f i) * (c : EReal) := by
  classical
  induction S using Finset.induction_on with
  | empty => rw [Finset.sum_empty, Finset.sum_empty, zero_mul]
  | insert a S ha ih =>
    rw [Finset.sum_insert ha, Finset.sum_insert ha, ih,
      EReal.right_distrib_of_nonneg_of_ne_top (EReal.coe_nonneg.mpr hc) (EReal.coe_ne_top c)]

/-- The mean over the rows of the rows' means, each sum started from the zero word and each mean a division by the
    word of 2048, is the loss. -/
theorem mean_of_means (s p : Mat) (R : Fin 2048 → EReal) (hR : ∀ i, R i = rowLoss s p i) :
    Ideal.div (Ideal.ofBits .f32 0x00000000#32
        + ∑ i : Fin 2048, Ideal.div (Ideal.ofBits .f32 0x00000000#32 + R i) (Ideal.ofBits .f32 0x45000000#32))
      (Ideal.ofBits .f32 0x45000000#32) = loss s p := by
  have h2048 : (2048 : ℝ) ≠ 0 := by norm_num
  simp only [ofBits_zero, ofBits_2048, zero_add, Ideal.div_coe h2048, hR]
  rw [sum_mul_real _ _ _ (by norm_num), mul_assoc, ← EReal.coe_mul]
  unfold loss
  congr 2
  norm_num

/-! ## The total by tiles of 512 rows -/

/-- Row `r` of tile `t`. -/
def tileRow (t : Fin 4) (r : Fin 512) : Fin 2048 := ⟨t.val * 512 + r.val, by omega⟩

/-- Four tiles of 512 rows are the 2048 rows. -/
theorem sum_tileRows (g : Fin 2048 → EReal) : ∑ t : Fin 4, ∑ r : Fin 512, g (tileRow t r) = ∑ i : Fin 2048, g i := by
  have h := Cert.TiledSum.sum_tiles (M := EReal) 4 512 (fun n => if h : n < 2048 then g ⟨n, h⟩ else 0)
  refine Eq.trans ?_ (h.trans ?_)
  · refine Finset.sum_congr rfl fun t _ => Finset.sum_congr rfl fun r _ => ?_
    have hlt : t.val * 512 + r.val < 2048 := by omega
    rw [dif_pos hlt]
    rfl
  · exact Finset.sum_congr rfl fun i _ => dif_pos i.isLt

/-- The grand total taken tile by tile, started from the zero word, over the word of 2048², is the loss. -/
theorem total_by_tiles (s p : Mat) (T : Fin 4 → EReal) (hT : ∀ t, T t = ∑ r : Fin 512, rowLoss s p (tileRow t r)) :
    Ideal.div (Ideal.ofBits .f32 0x00000000#32 + ∑ t : Fin 4, T t) (Ideal.ofBits .f32 0x4A800000#32) = loss s p := by
  have h : (4194304 : ℝ) ≠ 0 := by norm_num
  simp only [ofBits_zero, ofBits_4194304, zero_add, Ideal.div_coe h, hT]
  rw [sum_tileRows (rowLoss s p)]
  rfl

end Cert.Triplet

end
-- ==== Proof.LibLaneEntry.lean ====
/-
  Lane operations of a vector unit read at an entry, at the extended reals. Generic in the extents.

  Integer vector operations and the vector logarithm read at an index (each by definition); an `[a, 1]` column
  taken as an `[a]` vector (`shapeCast_a1_a_apply`); the lane number — an iota along the second axis of an `[a, b]`
  shape reads the word of the second coordinate (`iota_lane`); a lane sum of an `[a, b]` array from the zero word reads,
  at row `r`, the sum of that row's entries (`laneSum`, stated with the accumulator's neutrality as a hypothesis so that
  it applies in term mode to a printed reduction whatever proof the printed term carries); and the sum of ALL
  entries of an `[a]` vector the way a vector unit takes it — laid out as one row `[1, a]`, summed along the row
  into `[1]`, kept as a `[1, 1]` matrix and read at its one entry (`rowTotal`).
-/
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.LaneEntry

variable {s : Shape} {w : ℕ} {φ : FTy} {α : Type}

theorem cmpi_apply (p : CmpIPredicate) (x y : IVec s w) (i : s.Idx) : cmpi p x y i = IntOp.cmpi p (x i) (y i) := rfl
theorem subi_apply (x y : IVec s w) (i : s.Idx) : subi x y i = IntOp.subi (x i) (y i) := rfl
theorem addi_apply (x y : IVec s w) (i : s.Idx) : addi x y i = IntOp.addi (x i) (y i) := rfl
theorem maxsi_apply (x y : IVec s w) (i : s.Idx) : maxsi x y i = IntOp.maxsi (x i) (y i) := rfl
theorem minsi_apply (x y : IVec s w) (i : s.Idx) : minsi x y i = IntOp.minsi (x i) (y i) := rfl
theorem log_apply (x : FVec Ideal s φ) (i : s.Idx) : log x i = Ideal.log (x i) := rfl

/-- An `[a, 1]` column taken as an `[a]` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The lane number: an iota along the second axis of an `[a, b]` shape reads, at `(r, k)`, the word of `k`. -/
theorem iota_lane {a b : ℕ} (h : (⟨2, ![a, b]⟩ : Shape).Iotas .tc 32 [1]) (r : Fin a) (k : Fin b) :
    iota .tc ⟨2, ![a, b]⟩ 32 [1] h (ix2 r k) = BitVec.ofNat 32 k.val := by
  unfold iota
  show BitVec.ofNat 32 (0 * b + k.val) = _
  rw [Nat.zero_mul, Nat.zero_add]

/-- A lane sum of an `[a, b]` array from the zero word reads, at row `r`, the sum of the row's entries. -/
theorem laneSum {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun ax => Fin.ext (by
      match ax with | ⟨0, _⟩ => rfl | ⟨1, _⟩ => rfl)))

/-- A vector of `a` entries laid out as one row, summed along the row, kept as a 1×1 matrix and read at its one
    entry: the sum of the entries. -/
theorem rowTotal {a : ℕ} (v : FVec Ideal ⟨1, ![a]⟩ .f32) (h1 : (⟨1, ![a]⟩ : Shape).ShapeCasts ⟨2, ![1, a]⟩)
    (h2 : (⟨2, ![1, a]⟩ : Shape).Reduces [1] ⟨1, ![1]⟩)
    (hφ : FKind.Formats .f32) (hacc : (0x00000000#32 : BitVec 32) = FKind.add.neutral .f32 hφ)
    (h3 : (⟨1, ![1]⟩ : Shape).ShapeCasts ⟨2, ![1, 1]⟩)
    (h4 : ∀ ax, (![0, 0] : Fin 2 → Nat) ax < (⟨2, ![1, 1]⟩ : Shape).size ax) :
    extractAt ![0, 0] (shapeCast ⟨2, ![1, 1]⟩
        (multiReduction .add [1] ⟨1, ![1]⟩ (shapeCast ⟨2, ![1, a]⟩ v h1) 0x00000000#32 h2 hφ hacc) h3) h4
      = ∑ r : Fin a, v (ix1 r) := by
  unfold extractAt
  have e : (fun ax => (⟨(![0, 0] : Fin 2 → Nat) ax, h4 ax⟩ : Fin ((⟨2, ![1, 1]⟩ : Shape).size ax)))
      = ix2 (0 : Fin 1) (0 : Fin 1) :=
    funext fun ax => by match ax with | ⟨0, _⟩ => rfl | ⟨1, _⟩ => rfl
  rw [e, shapeCast_a_1a_apply _ _ (0 : Fin 1) (0 : Fin 1)]
  refine (laneSum (a := 1) (b := a) _ _ _ _ (0 : Fin 1)).trans (Finset.sum_congr rfl fun r _ => ?_)
  exact shapeCast_a_1a_apply v h1 (0 : Fin 1) r

end Cert.LaneEntry

end
-- ==== Proof.Payloads.lean ====
/-
  The kernel bodies' stored values read at an index, on the extended reals.

  The first body stores two rows over the 2048 sketches: the own distance `dist j` plus the margin (a lane sum of squared
  differences kept as a column, its square root, the column turned into a row, the margin word splat and added), and
  the squared length `sq s j` (a lane sum kept as a column, turned into a row).

  The second body, at tile `t` of 512 photos, stores ONE number splat over its 1×8×128 block: the total over the tile's
  rows `r` and all sketches `j` of `max(select(row = column, 0, pos_j − √max((|p_r|² + sn_j) − 2·(p_r · s_j), 0)), 0)`,
  the inner products by a matrix product into a zero accumulator contracting the two row axes (the roundings on the
  way in are the identity here), the row number the lane-0 iota plus 512·t, the column number the lane-1 iota. With
  `pos` and `sn` the first body's rows this is the tile's share of the loss table: `Σ_r rowLoss (512·t + r)`.
-/
import proofs.«100635_j75943611728236_2_alg».proof.Proof.Gen.KernelIdeal.Skeleton
import proofs.«100635_j75943611728236_2_alg».proof.Proof.Spec
import proofs.«100635_j75943611728236_2_alg».proof.Proof.LibLaneEntry
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx
open Cert.Triplet Cert.LaneEntry

/-! ## Small layout facts, generic in the extents -/

section Layout
variable {α : Type}

/-- A vector of `a` entries kept as a column reads, at `(i, 0)`, the vector at `i`. -/
theorem column_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast along the rows reads, at `(i, j)`, the column at `(i, 0)`. -/
theorem column_spread_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- A 1×1×1 array broadcast over a 1×b×c block reads its one entry everywhere. -/
theorem splat3_apply {b c : ℕ} (x : (⟨3, ![1, 1, 1]⟩ : Shape).Idx → α)
    (h : (⟨3, ![1, 1, 1]⟩ : Shape).Broadcasts ⟨3, ![1, b, c]⟩) (y : (⟨3, ![1, b, c]⟩ : Shape).Idx) :
    broadcastTo ⟨3, ![1, b, c]⟩ x h y = x (ix3 (0 : Fin 1) (0 : Fin 1) (0 : Fin 1)) :=
  broadcastTo_apply x h y _ fun ax => by
    match ax with
    | ⟨0, _⟩ => rfl
    | ⟨1, _⟩ => rfl
    | ⟨2, _⟩ => rfl

/-- A 1×1 matrix kept as a 1×1×1 array reads its one entry. -/
theorem cast_11_111_apply (x : (⟨2, ![1, 1]⟩ : Shape).Idx → α) (h : (⟨2, ![1, 1]⟩ : Shape).ShapeCasts ⟨3, ![1, 1, 1]⟩) :
    shapeCast ⟨3, ![1, 1, 1]⟩ x h (ix3 (0 : Fin 1) (0 : Fin 1) (0 : Fin 1)) = x (ix2 (0 : Fin 1) (0 : Fin 1)) :=
  shapeCast_apply x h _ _ (by rw [Shape.rowMajor_val_two, Shape.rowMajor_val_three]; rfl)

end Layout

/-- The sum down a column of `a` entries, from the zero word, is the sum of the entries. -/
theorem columnSum {a : ℕ} (v : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ) :
    multiReduction .add [0] ⟨1, ![1]⟩ v 0x00000000#32 h hφ hacc (ix1 (0 : Fin 1)) = ∑ r : Fin a, v (ix2 r (0 : Fin 1)) :=
  (Ideal.multiReduction_add_single v 0x00000000#32 h hφ hacc (ix1 (0 : Fin 1))).trans
    (Finset.sum_congr rfl fun k _ => congrArg v (funext fun ax => Fin.ext (by
      match ax with | ⟨0, _⟩ => rfl | ⟨1, _⟩ => rfl)))

/-! ## The first body's two rows -/

/-- The own distance plus the margin, at sketch `j`. -/
theorem pos_row (s p : Vec Ideal S2048x256 .f32) (j : Fin 2048) :
    k0_pay1 (F := Ideal) s p (ix2 (0 : Fin 1) j) = dist s p j + margin := by
  unfold k0_pay1
  dsimp only
  rw [addf_apply, transpose_ix2_apply]
  refine congrArg₂ (· + ·) ?_ rfl
  show Ideal.sqrt (shapeCast S2048x1 _ shapeCasts_S2048_S2048x1 (ix2 j (0 : Fin 1))) = _
  rw [column_apply]
  exact congrArg Ideal.sqrt (laneSum (a := 2048) (b := 256) (mulf (F := Ideal) (subf s p) (subf s p)) _ _ _ j)

/-- The squared length of sketch `j`. -/
theorem sn_row (s : Vec Ideal S2048x256 .f32) (j : Fin 2048) :
    k0_pay2 (F := Ideal) s (ix2 (0 : Fin 1) j) = sq s j := by
  unfold k0_pay2
  dsimp only
  rw [transpose_ix2_apply, column_apply]
  exact laneSum (a := 2048) (b := 256) (mulf (F := Ideal) s s) _ _ _ j

/-! ## The second body's inner products -/

theorem lhs_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide),
    dif_pos (show (0 : Fin S512x256.rank) ∈ dot_S512x256_S2048x256_S512x2048_1_1_0_0_n_n.lhsNonContracting by decide)]
  rfl
theorem rhs_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide),
    dif_pos (show (0 : Fin S2048x256.rank) ∈ dot_S512x256_S2048x256_S512x2048_1_1_0_0_n_n.rhsNonContracting by decide)]
  rfl

/-- Entry `(r, j)` of the product: the inner product of row `r` of the left operand and row `j` of the right. -/
theorem cross_entry (v0 : Vec Ideal S512x256 .f32) (v1 : Vec Ideal S2048x256 .f32) (r : Fin 512) (j : Fin 2048) :
    matmul dot_S512x256_S2048x256_S512x2048_1_1_0_0_n_n none (truncf .bf16 v0 bitsLt_bf16_f32)
        (truncf .bf16 v1 bitsLt_bf16_f32) (constant (F := Ideal) S512x2048 .f32 0x00000000#32) (ix2 r j)
      = ∑ k : Fin 256, v0 (ix2 r k) * v1 (ix2 j k) := by
  simp only [matmul]
  rw [Ideal.matmul_constant_zero_apply,
    ← Equiv.sum_comp (ValueIdx.contrEquiv1 dot_S512x256_S2048x256_S512x2048_1_1_0_0_n_n 256 rfl rfl).symm]
  refine Finset.sum_congr rfl fun k _ => ?_
  have hk := ValueIdx.contrEquiv1_symm_val dot_S512x256_S2048x256_S512x2048_1_1_0_0_n_n 256 rfl rfl k
  have el : dot_S512x256_S2048x256_S512x2048_1_1_0_0_n_n.lhsIdx (ix2 r j)
      ((ValueIdx.contrEquiv1 dot_S512x256_S2048x256_S512x2048_1_1_0_0_n_n 256 rfl rfl).symm k) = ix2 r k :=
    funext fun a => Fin.ext (by
      match a with
      | ⟨0, _⟩ => exact lhs_0 _ _
      | ⟨1, _⟩ => exact (dot_S512x256_S2048x256_S512x2048_1_1_0_0_n_n.lhsIdx_val_of_single rfl _ _).trans hk)
  have er : dot_S512x256_S2048x256_S512x2048_1_1_0_0_n_n.rhsIdx (ix2 r j)
      ((ValueIdx.contrEquiv1 dot_S512x256_S2048x256_S512x2048_1_1_0_0_n_n 256 rfl rfl).symm k) = ix2 j k :=
    funext fun a => Fin.ext (by
      match a with
      | ⟨0, _⟩ => exact rhs_0 _ _
      | ⟨1, _⟩ => exact (dot_S512x256_S2048x256_S512x2048_1_1_0_0_n_n.rhsIdx_val_of_single rfl _ _).trans hk)
  rw [el, er]
  rfl

/-! ## The second body's table entry by entry -/

theorem sqrt_apply {s : Shape} {φ : FTy} (x : FVec Ideal s φ) (i : s.Idx) : sqrt x i = Ideal.sqrt (x i) := rfl

/-- The squared length of row `r` of the tile, kept as a column and spread along the row. -/
theorem pn_entry (v0 : Vec Ideal S512x256 .f32) (r : Fin 512) (j : Fin 2048) :
    broadcastTo S512x2048 (shapeCast S512x1
        (multiReduction .add [1] S512 (mulf (F := Ideal) v0 v0) 0x00000000#32 reduces_S512x256_S512 (.inl rfl) rfl)
        shapeCasts_S512_S512x1) broadcasts_S512x1_S512x2048 (ix2 r j)
      = ∑ k : Fin 256, v0 (ix2 r k) * v0 (ix2 r k) := by
  rw [column_spread_apply, column_apply]
  exact laneSum (a := 512) (b := 256) (mulf (F := Ideal) v0 v0) _ _ _ r

/-- A row over the 2048 sketches spread over the tile's 512 rows. -/
theorem row_entry (v : Vec Ideal S1x2048 .f32) (r : Fin 512) (j : Fin 2048) :
    broadcastTo S512x2048 (shapeCast S1x2048 v shapeCasts_S1x2048_S1x2048) broadcasts_S1x2048_S512x2048 (ix2 r j)
      = v (ix2 (0 : Fin 1) j) := by
  rw [broadcastTo_1b_ab_apply, shapeCast_self]

/-- Row `512·t + r` against column `j` on 32-bit words: neither side wraps. -/
theorem diag_word (a : ℕ) (t : Fin 4) (ha : a = t.val) (r : Fin 512) (j : Fin 2048) :
    IntOp.cmpi .eq (IntOp.addi (BitVec.ofNat 32 r.val) (Scalar.muli (BitVec.ofNat 32 a) 512#32)) (BitVec.ofNat 32 j.val)
      = if tileRow t r = j then 1#1 else 0#1 := by
  subst ha
  have hr := r.isLt
  have ht := t.isLt
  have hj := j.isLt
  have hx : (IntOp.addi (BitVec.ofNat 32 r.val) (Scalar.muli (BitVec.ofNat 32 t.val) 512#32)).toNat
      = t.val * 512 + r.val := by
    unfold IntOp.addi Scalar.muli IntOp.muli
    simp only [BitVec.toNat_add, BitVec.toNat_mul, BitVec.toNat_ofNat]
    omega
  have hy : (BitVec.ofNat 32 j.val).toNat = j.val := by
    simp only [BitVec.toNat_ofNat]; omega
  generalize IntOp.addi (BitVec.ofNat 32 r.val) (Scalar.muli (BitVec.ofNat 32 t.val) 512#32) = X at hx
  generalize BitVec.ofNat 32 j.val = Y at hy
  by_cases h : tileRow t r = j
  · rw [if_pos h]
    have e : X = Y := BitVec.eq_of_toNat_eq (by rw [hx, hy, ← h]; rfl)
    subst e
    simp [IntOp.cmpi]
  · rw [if_neg h]
    have ne : X ≠ Y := fun e => h (Fin.ext (by rw [← hy, ← e, hx]; rfl))
    have hb : (X == Y) = false := beq_eq_false_iff_ne.mpr ne
    simp [IntOp.cmpi, hb]

/-- The body's diagonal test at `(r, j)` of tile `t`. -/
theorem mask_word (i : grid1.Coords) (t : Fin 4) (hi : (i 0).val = t.val) (r : Fin 512) (j : Fin 2048) :
    cmpi .eq (addi (iota .tc S512x2048 32 [0] iota_S512x2048_d0_w32)
        (broadcast S512x2048 (Scalar.muli (BitVec.ofNat 32 (i 0).val) 512#32)))
      (iota .tc S512x2048 32 [1] iota_S512x2048_d1_w32) (ix2 r j) = if tileRow t r = j then 1#1 else 0#1 := by
  show IntOp.cmpi .eq (IntOp.addi (iota .tc S512x2048 32 [0] iota_S512x2048_d0_w32 (ix2 r j)) _)
      (iota .tc S512x2048 32 [1] iota_S512x2048_d1_w32 (ix2 r j)) = _
  rw [iota_single_apply, iota_single_apply]
  exact diag_word (i 0).val t hi r j

/-- WHAT THE SECOND BODY STORES at tile `t`: the tile's share of the loss table, at every entry of its block — given that
    its first operand is the tile's rows of the photos, its second the sketches, and its two rows the sketches' squared
    lengths and their own distances plus the margin. -/
theorem tile_total (i : grid1.Coords) (t : Fin 4) (hi : (i 0).val = t.val)
    (v0 : Vec Ideal S512x256 .f32) (v1 : Vec Ideal S2048x256 .f32) (v8 v10 : Vec Ideal S1x2048 .f32) (s p : Mat)
    (h0 : ∀ (r : Fin 512) (k : Fin 256), v0 (ix2 r k) = p (ix2 (tileRow t r) k))
    (h1 : ∀ (j : Fin 2048) (k : Fin 256), v1 (ix2 j k) = s (ix2 j k))
    (h8 : ∀ j : Fin 2048, v8 (ix2 (0 : Fin 1) j) = sq s j)
    (h10 : ∀ j : Fin 2048, v10 (ix2 (0 : Fin 1) j) = dist s p j + margin)
    (y : S1x8x128.Idx) :
    k1_pay1 (F := Ideal) i v0 v1 v8 v10 y = ∑ r : Fin 512, rowLoss s p (tileRow t r) := by
  unfold k1_pay1
  dsimp only
  rw [splat3_apply, cast_11_111_apply, shapeCast_a_1a_apply]
  refine (columnSum _ _ _ _).trans (Finset.sum_congr rfl fun r _ => ?_)
  rw [column_apply]
  show _ = ∑ j : Fin 2048, hinge s p (tileRow t r) j
  refine (laneSum _ _ _ _ r).trans (Finset.sum_congr rfl fun j _ => ?_)
  rw [maximumf_apply, select_apply, mask_word i t hi r j, subf_apply, row_entry, sqrt_apply, maximumf_apply, subf_apply,
    addf_apply, pn_entry, row_entry, mulf_apply, cross_entry, h8, h10]
  simp only [broadcast_apply]
  have hsq : ∑ k : Fin 256, v0 (ix2 r k) * v0 (ix2 r k) = sq p (tileRow t r) :=
    Finset.sum_congr rfl fun k _ => by rw [h0]
  have hcr : ∑ k : Fin 256, v0 (ix2 r k) * v1 (ix2 j k) = cross s p (tileRow t r) j :=
    Finset.sum_congr rfl fun k _ => by rw [h0, h1]
  rw [hsq, hcr]
  unfold hinge far
  by_cases h : tileRow t r = j
  · rw [if_pos h, if_pos h, select_one]
    show max (Ideal.ofBits .f32 0x00000000#32) (Ideal.ofBits .f32 0x00000000#32) = max 0 0
    rw [ofBits_zero]
  · rw [if_neg h, if_neg h, select_zero]
    show max (_ - Ideal.sqrt (max (_ - Ideal.ofBits .f32 0x40000000#32 * _) (Ideal.ofBits .f32 0x00000000#32)))
        (Ideal.ofBits .f32 0x00000000#32) = _
    rw [ofBits_zero]
    rfl

end Cert.KernelIdeal.Payloads

end
-- ==== Proof.KernelValue.lean ====
/-
  The idealized kernel program's arrays after each region, and its result.

  Region 0 has ONE grid point and every window's block is its whole array, so its two result rows end at the first
  body's stored values of the argument arrays as launched: `pos = dist + margin` and `sn = |s_j|²`.

  Region 1 has four grid points; point `t` reads rows `512·t … 512·t + 511` of the photos, the whole of the sketches
  and the two rows region 0 left, and writes block `t` of the 4 × 8 × 128 table. The blocks tile the table, so it ends
  holding, at `(t, a, b)`, tile `t`'s share of the loss table (`tileTotals`).

  The host lines then take entry `(t, 0, 0)` of each tile, add the four from the zero word and divide by the word of 2048²:
  Spec's `total_by_tiles`.
-/
import proofs.«100635_j75943611728236_2_alg».proof.Proof.FrameKernelIdeal
import proofs.«100635_j75943611728236_2_alg».proof.Proof.Payloads
import Idealize.ShloMosaic.Lib.StableHlo.Run

set_option maxRecDepth 16384

noncomputable section

open scoped BigOperators

namespace Cert.KernelIdeal.Arrays

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenP Cert.KernelIdeal.Payloads Cert.Triplet

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The sketches as launched on core `c`. -/
abbrev sk (c : Dev nD) : Mat := m ((c : Thread nD τ).loc main_arg0)
/-- The photos as launched on core `c`. -/
abbrev ph (c : Dev nD) : Mat := m ((c : Thread nD τ).loc main_arg1)

/-! ## Region 0 -/

/-- Every window of region 0 sits at block (0, 0) at its one grid point. -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The sketches' block at the point is the sketches. -/
theorem iblk0_sk (c : Dev nD) (t : Fin cfg0.N) : iblk0 (V0 m ρ) c 0 t = sk m c := by
  obtain ⟨e00, e01, -, -, -, -, -, -⟩ := idx0 t
  funext x
  show V0 m ρ c main_arg0 (((cfg0.win 0).blk t).view.emb x) = m ((c : Thread nD τ).loc main_arg0) x
  have he : ((cfg0.win 0).blk t).view.emb x = x := by
    funext a; apply Fin.ext
    match a with
    | ⟨0, _⟩ => show win0_0.index t (0 : Fin 2) * 2048 + 1 * (x 0).val = (x 0).val; omega
    | ⟨1, _⟩ => show win0_0.index t (1 : Fin 2) * 256 + 1 * (x 1).val = (x 1).val; omega
  rw [he]

/-- The photos' block at the point is the photos. -/
theorem iblk0_ph (c : Dev nD) (t : Fin cfg0.N) : iblk0 (V0 m ρ) c 1 t = ph m c := by
  obtain ⟨-, -, e10, e11, -, -, -, -⟩ := idx0 t
  funext x
  show V0 m ρ c main_arg1 (((cfg0.win 1).blk t).view.emb x) = m ((c : Thread nD τ).loc main_arg1) x
  have he : ((cfg0.win 1).blk t).view.emb x = x := by
    funext a; apply Fin.ext
    match a with
    | ⟨0, _⟩ => show win0_1.index t (0 : Fin 2) * 2048 + 1 * (x 0).val = (x 0).val; omega
    | ⟨1, _⟩ => show win0_1.index t (1 : Fin 2) * 256 + 1 * (x 1).val = (x 1).val; omega
  rw [he]

/-- What the point writes back through window 2 is the `pos` row of the arguments. -/
theorem flushed0_2_eq (c : Dev nD) (t : Fin cfg0.N) :
    (dat0 (V0 m ρ) c).flushed 2 t
      = ((cfg0.win 2).blk t).view.read (Elt Ideal) (k0_pay1 (F := Ideal) (sk m c) (ph m c)) := by
  show (cfg0.win 2).cut (grid0.coords t) ((dat0 (V0 m ρ) c).after 2 t) = _
  rw [after0_2]
  unfold out0_2
  rw [View.canon_unit_zero hz2]
  simp only [View.ld_unit_zero (S := S2048x256) hz2]
  rw [iblk0_sk, iblk0_ph]
  obtain ⟨-, -, -, -, e20, e21, -, -⟩ := idx0 t
  funext y
  show k0_pay1 (F := Ideal) (sk m c) (ph m c) y = k0_pay1 (F := Ideal) (sk m c) (ph m c) (((cfg0.win 2).blk t).view.emb y)
  have he : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 2048 + 1 * (y 1).val = (y 1).val; omega
  rw [he]

/-- What the point writes back through window 3 is the `sn` row of the sketches. -/
theorem flushed0_3_eq (c : Dev nD) (t : Fin cfg0.N) :
    (dat0 (V0 m ρ) c).flushed 3 t
      = ((cfg0.win 3).blk t).view.read (Elt Ideal) (k0_pay2 (F := Ideal) (sk m c)) := by
  show (cfg0.win 3).cut (grid0.coords t) ((dat0 (V0 m ρ) c).after 3 t) = _
  rw [after0_3]
  unfold out0_3
  rw [View.canon_unit_zero hz2]
  simp only [View.ld_unit_zero (S := S2048x256) hz2]
  rw [iblk0_sk]
  obtain ⟨-, -, -, -, -, -, e30, e31⟩ := idx0 t
  funext y
  show k0_pay2 (F := Ideal) (sk m c) y = k0_pay2 (F := Ideal) (sk m c) (((cfg0.win 3).blk t).view.emb y)
  have he : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 2048 + 1 * (y 1).val = (y 1).val; omega
  rw [he]

theorem mem_blk0_2 (t : Fin cfg0.N) (i : S1x2048.Idx) :
    i ∈ ((cfg0.win 2).blk t).view.set ↔ ∀ a : Fin 2, win0_2.index t a * S1x2048.size a ≤ (i a).val
      ∧ (i a).val < win0_2.index t a * S1x2048.size a + S1x2048.size a := by
  show i ∈ ((View.whole main_v0_0).slice (win0_2.rect t)).set ↔ _
  rw [View.set_slice_whole, Rect.mem_set_unit]
  exact Iff.rfl

theorem mem_blk0_3 (t : Fin cfg0.N) (i : S1x2048.Idx) :
    i ∈ ((cfg0.win 3).blk t).view.set ↔ ∀ a : Fin 2, win0_3.index t a * S1x2048.size a ≤ (i a).val
      ∧ (i a).val < win0_3.index t a * S1x2048.size a + S1x2048.size a := by
  show i ∈ ((View.whole main_v0_1).slice (win0_3.rect t)).set ↔ _
  rw [View.set_slice_whole, Rect.mem_set_unit]
  exact Iff.rfl

/-- The one block covers the row. -/
theorem cover0_2 (i : S1x2048.Idx) :
    ∃ t : Fin cfg0.N, (cfg0.win 2).flush t = true ∧ i ∈ ((cfg0.win 2).blk t).view.set := by
  refine ⟨t0_0, flush0_2 t0_0, ?_⟩
  rw [mem_blk0_2]
  obtain ⟨-, -, -, -, e20, e21, -, -⟩ := idx0 t0_0
  have h0 : (i 0).val < 1 := (i 0).isLt
  have h1 : (i 1).val < 2048 := (i 1).isLt
  intro a
  match a with
  | ⟨0, _⟩ =>
    show win0_2.index t0_0 (0 : Fin 2) * 1 ≤ (i 0).val ∧ (i 0).val < win0_2.index t0_0 (0 : Fin 2) * 1 + 1
    omega
  | ⟨1, _⟩ =>
    show win0_2.index t0_0 (1 : Fin 2) * 2048 ≤ (i 1).val ∧ (i 1).val < win0_2.index t0_0 (1 : Fin 2) * 2048 + 2048
    omega

theorem cover0_3 (i : S1x2048.Idx) :
    ∃ t : Fin cfg0.N, (cfg0.win 3).flush t = true ∧ i ∈ ((cfg0.win 3).blk t).view.set := by
  refine ⟨t0_0, flush0_3 t0_0, ?_⟩
  rw [mem_blk0_3]
  obtain ⟨-, -, -, -, -, -, e30, e31⟩ := idx0 t0_0
  have h0 : (i 0).val < 1 := (i 0).isLt
  have h1 : (i 1).val < 2048 := (i 1).isLt
  intro a
  match a with
  | ⟨0, _⟩ =>
    show win0_3.index t0_0 (0 : Fin 2) * 1 ≤ (i 0).val ∧ (i 0).val < win0_3.index t0_0 (0 : Fin 2) * 1 + 1
    omega
  | ⟨1, _⟩ =>
    show win0_3.index t0_0 (1 : Fin 2) * 2048 ≤ (i 1).val ∧ (i 1).val < win0_3.index t0_0 (1 : Fin 2) * 2048 + 2048
    omega

/-- After region 0 the first result row is `pos` of the arguments as launched, -/
theorem final0_2 (c : Dev nD) : (dat0 (V0 m ρ) c).arrAt 2 cfg0.N = k0_pay1 (F := Ideal) (sk m c) (ph m c) :=
  (dat0 (V0 m ρ) c).arrAt_eq_of_cover 2 _ (fun t _ => flushed0_2_eq m ρ c t) cover0_2
/-- and the second is `sn` of the sketches. -/
theorem final0_3 (c : Dev nD) : (dat0 (V0 m ρ) c).arrAt 3 cfg0.N = k0_pay2 (F := Ideal) (sk m c) :=
  (dat0 (V0 m ρ) c).arrAt_eq_of_cover 3 _ (fun t _ => flushed0_3_eq m ρ c t) cover0_3

/-! ## What region 1 finds -/

theorem V1_sk (c : Dev nD) : V1 m ρ c main_arg0 = sk m c :=
  (W1_arr m ρ c 0).trans (((dat0 (V0 m ρ) c).arrAt_in 0 rfl _).trans (A_eq0 (V0 m ρ) c 0))
theorem V1_ph (c : Dev nD) : V1 m ρ c main_arg1 = ph m c :=
  (W1_arr m ρ c 1).trans (((dat0 (V0 m ρ) c).arrAt_in 1 rfl _).trans (A_eq0 (V0 m ρ) c 1))
theorem V1_pos (c : Dev nD) : V1 m ρ c main_v0_0 = k0_pay1 (F := Ideal) (sk m c) (ph m c) :=
  (W1_arr m ρ c 2).trans (final0_2 m ρ c)
theorem V1_sn (c : Dev nD) : V1 m ρ c main_v0_1 = k0_pay2 (F := Ideal) (sk m c) :=
  (W1_arr m ρ c 3).trans (final0_3 m ρ c)

/-! ## Region 1 -/

/-- The printed index maps over the four points: the photos' window and the output's move with the point along their
    first axis; every other window stays at block (0, 0). -/
theorem idx1 : ∀ t : Fin cfg1.N,
    ((grid1.coords t) 0).val = t.val
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The table of tile totals: at `(t, a, b)` the share of the loss table of rows `512·t … 512·t + 511`. -/
def tileTotals (s p : Mat) : S4x8x128.Idx → EReal :=
  fun i => ∑ r : Fin 512, rowLoss s p (tileRow ⟨(i 0).val, (i 0).isLt⟩ r)

/-- WHAT POINT `t` WRITES BACK is block `t` of the table of tile totals of the arguments as launched. -/
theorem flushed1_4_eq (c : Dev nD) (t : Fin cfg1.N) :
    (dat1 (V1 m ρ) c).flushed 4 t
      = ((cfg1.win 4).blk t).view.read (Elt Ideal) (tileTotals (sk m c) (ph m c)) := by
  show (cfg1.win 4).cut (grid1.coords t) ((dat1 (V1 m ρ) c).after 4 t) = _
  rw [after1_4]
  unfold out1_4
  rw [View.canon_unit_zero hz3]
  simp only [View.ld_unit_zero (S := S512x256) hz2, View.ld_unit_zero (S := S2048x256) hz2,
    View.ld_unit_zero (S := S1x2048) hz2]
  obtain ⟨eg, e00, e01, e10, e11, e20, e21, e30, e31, e40, e41, e42⟩ := idx1 t
  have ht : t.val < 4 := lt_of_lt_of_eq t.isLt N_1
  funext y
  show k1_pay1 (F := Ideal) (grid1.coords t) (iblk1 (V1 m ρ) c 0 t) (iblk1 (V1 m ρ) c 1 t) (iblk1 (V1 m ρ) c 3 t)
      (iblk1 (V1 m ρ) c 2 t) y = tileTotals (sk m c) (ph m c) (((cfg1.win 4).blk t).view.emb y)
  have hrow : tileTotals (sk m c) (ph m c) (((cfg1.win 4).blk t).view.emb y)
      = ∑ r : Fin 512, rowLoss (sk m c) (ph m c) (tileRow ⟨t.val, ht⟩ r) := by
    unfold tileTotals
    have e : (⟨((((cfg1.win 4).blk t).view.emb y) 0).val, ((((cfg1.win 4).blk t).view.emb y) 0).isLt⟩ : Fin 4)
        = ⟨t.val, ht⟩ := Fin.ext (by
      show win1_4.index t (0 : Fin 3) * 1 + 1 * (y 0).val = t.val
      have hy : (y 0).val < 1 := (y 0).isLt
      omega)
    rw [e]
  rw [hrow]
  refine tile_total (grid1.coords t) ⟨t.val, ht⟩ eg (iblk1 (V1 m ρ) c 0 t) (iblk1 (V1 m ρ) c 1 t)
    (iblk1 (V1 m ρ) c 3 t) (iblk1 (V1 m ρ) c 2 t) (sk m c) (ph m c) ?_ ?_ ?_ ?_ y
  · intro r k
    show V1 m ρ c main_arg1 (((cfg1.win 0).blk t).view.emb (ix2 r k)) = ph m c (ix2 (tileRow ⟨t.val, ht⟩ r) k)
    rw [V1_ph]
    refine congrArg (ph m c) (funext fun a => Fin.ext ?_)
    match a with
    | ⟨0, _⟩ => show win1_0.index t (0 : Fin 2) * 512 + 1 * r.val = t.val * 512 + r.val; omega
    | ⟨1, _⟩ => show win1_0.index t (1 : Fin 2) * 256 + 1 * k.val = k.val; omega
  · intro j k
    show V1 m ρ c main_arg0 (((cfg1.win 1).blk t).view.emb (ix2 j k)) = sk m c (ix2 j k)
    rw [V1_sk]
    refine congrArg (sk m c) (funext fun a => Fin.ext ?_)
    match a with
    | ⟨0, _⟩ => show win1_1.index t (0 : Fin 2) * 2048 + 1 * j.val = j.val; omega
    | ⟨1, _⟩ => show win1_1.index t (1 : Fin 2) * 256 + 1 * k.val = k.val; omega
  · intro j
    show V1 m ρ c main_v0_1 (((cfg1.win 3).blk t).view.emb (ix2 (0 : Fin 1) j)) = sq (sk m c) j
    rw [V1_sn, ← sn_row (sk m c) j]
    refine congrArg (k0_pay2 (F := Ideal) (sk m c)) (funext fun a => Fin.ext ?_)
    match a with
    | ⟨0, _⟩ => show win1_3.index t (0 : Fin 2) * 1 + 1 * 0 = 0; omega
    | ⟨1, _⟩ => show win1_3.index t (1 : Fin 2) * 2048 + 1 * j.val = j.val; omega
  · intro j
    show V1 m ρ c main_v0_0 (((cfg1.win 2).blk t).view.emb (ix2 (0 : Fin 1) j)) = dist (sk m c) (ph m c) j + margin
    rw [V1_pos, ← pos_row (sk m c) (ph m c) j]
    refine congrArg (k0_pay1 (F := Ideal) (sk m c) (ph m c)) (funext fun a => Fin.ext ?_)
    match a with
    | ⟨0, _⟩ => show win1_2.index t (0 : Fin 2) * 1 + 1 * 0 = 0; omega
    | ⟨1, _⟩ => show win1_2.index t (1 : Fin 2) * 2048 + 1 * j.val = j.val; omega

theorem mem_blk1_4 (t : Fin cfg1.N) (i : S4x8x128.Idx) :
    i ∈ ((cfg1.win 4).blk t).view.set ↔ ∀ a : Fin 3, win1_4.index t a * S1x8x128.size a ≤ (i a).val
      ∧ (i a).val < win1_4.index t a * S1x8x128.size a + S1x8x128.size a := by
  show i ∈ ((View.whole main_v1).slice (win1_4.rect t)).set ↔ _
  rw [View.set_slice_whole, Rect.mem_set_unit]
  exact Iff.rfl

/-- The four blocks tile the table: entry `(q, a, b)` is in point `q`'s block. -/
theorem cover1_4 (i : S4x8x128.Idx) :
    ∃ t : Fin cfg1.N, (cfg1.win 4).flush t = true ∧ i ∈ ((cfg1.win 4).blk t).view.set := by
  have h0 : (i 0).val < 4 := (i 0).isLt
  have h1 : (i 1).val < 8 := (i 1).isLt
  have h2 : (i 2).val < 128 := (i 2).isLt
  have hN : (i 0).val < cfg1.N := lt_of_lt_of_eq h0 N_1.symm
  refine ⟨⟨(i 0).val, hN⟩, flush1_4 _, ?_⟩
  rw [mem_blk1_4]
  obtain ⟨-, -, -, -, -, -, -, -, -, e40, e41, e42⟩ := idx1 ⟨(i 0).val, hN⟩
  have e40' : win1_4.index ⟨(i 0).val, hN⟩ (0 : Fin 3) = (i 0).val := e40
  intro a
  match a with
  | ⟨0, _⟩ =>
    show win1_4.index ⟨(i 0).val, hN⟩ (0 : Fin 3) * 1 ≤ (i 0).val
      ∧ (i 0).val < win1_4.index ⟨(i 0).val, hN⟩ (0 : Fin 3) * 1 + 1
    omega
  | ⟨1, _⟩ =>
    show win1_4.index ⟨(i 0).val, hN⟩ (1 : Fin 3) * 8 ≤ (i 1).val
      ∧ (i 1).val < win1_4.index ⟨(i 0).val, hN⟩ (1 : Fin 3) * 8 + 8
    omega
  | ⟨2, _⟩ =>
    show win1_4.index ⟨(i 0).val, hN⟩ (2 : Fin 3) * 128 ≤ (i 2).val
      ∧ (i 2).val < win1_4.index ⟨(i 0).val, hN⟩ (2 : Fin 3) * 128 + 128
    omega

/-- After region 1 the table holds the tile totals of the arguments as launched. -/
theorem final1_4 (c : Dev nD) : (dat1 (V1 m ρ) c).arrAt 4 cfg1.N = tileTotals (sk m c) (ph m c) :=
  (dat1 (V1 m ρ) c).arrAt_eq_of_cover 4 _ (fun t _ => flushed1_4_eq m ρ c t) cover1_4

/-! ## The host lines -/

/-- The result buffer ends at the loss of the arguments as launched. -/
theorem result_eq (c : Dev nD) :
    W3 m ρ c (Proc.devRef .tc main_v5) = fun _ => loss (sk m c) (ph m c) := by
  have hv1 : W2 m ρ c (Proc.devRef .tc main_v1) = tileTotals (sk m c) (ph m c) :=
    (W2_arr m ρ c 4).trans (final1_4 m ρ c)
  show StableHlo.after hostOps2 (W2 m ρ c) (Proc.devRef .tc main_v5) = _
  after_results
  -- the four tile totals added from the zero word, over the word of 2048²
  have key : ∀ X : S4.Idx → EReal,
      (∀ q : Fin 4, X (ix1 q) = ∑ r : Fin 512, rowLoss (sk m c) (ph m c) (tileRow q r)) →
      Host.divf (F := Ideal) (Host.reduceAdd (F := Ideal) X (constant (F := Ideal) S_ .f32 0x00000000#32) reducesTo_S4_S_d0 h_S_)
          (constant (F := Ideal) S_ .f32 0x4A800000#32) = fun _ => loss (sk m c) (ph m c) := by
    intro X hX
    funext i0
    show Ideal.div (Host.reduceAdd (F := Ideal) X (constant (F := Ideal) S_ .f32 0x00000000#32) reducesTo_S4_S_d0 h_S_ i0)
        (Ideal.ofBits .f32 0x4A800000#32) = _
    simp only [Host.reduceAdd, Ideal.hostReduceAdd_def]
    rw [Ideal.hostReduceAdd_total reducesTo_S4_S_d0 (fun b => b.elim0) X _ i0, sum_idx1]
    exact total_by_tiles (sk m c) (ph m c) (fun q => X (ix1 q)) hX
  refine key _ (fun q => ?_)
  -- entry q of the reshaped slice is entry (q, 0, 0) of the table
  show shapeCast S4 (extractStridedSlice S4x1x1 ![0, 0, 0] (W2 m ρ c (Proc.devRef .tc main_v1))
      slices_S4x8x128_S4x1x1_0_0_0) shapeCasts_S4x1x1_S4 (ix1 q) = _
  rw [hv1, shapeCast_apply _ _ (ix1 q) (ix3 q (0 : Fin 1) (0 : Fin 1)) (by
      rw [Shape.rowMajor_val_three, Shape.rowMajor_val_one]
      show (q.val * 1 + 0) * 1 + 0 = q.val
      omega),
    extractStridedSlice_apply _ _ _ (ix3 q (0 : Fin 1) (0 : Fin 1)) (ix3 q (0 : Fin 8) (0 : Fin 128)) (fun a => by
      match a with
      | ⟨0, _⟩ => exact (Nat.zero_add _).symm
      | ⟨1, _⟩ => rfl
      | ⟨2, _⟩ => rfl)]
  rfl

end Cert.KernelIdeal.Arrays

end
-- ==== Proof.RefValue.lean ====
/-
  The reference program's result is the loss of Proof/Spec.lean.

  The reference's stages are read one operation at a time at an index: the own distances `dist` (a host sum of squared
  differences along a row, then the square root), the squared lengths of the photos' and the sketches' rows spread along
  a column and along a row, the 2048 × 2048 table of inner products (a `dot_general` contracting the two row axes), the
  far distances, the margin added last, the diagonal cleared by the product with `1 − eye` (`eye` the comparison of
  the two iotas converted to a float), the rectifier, and the mean of the rows' means. Entry by entry this is
  `hingeMul`, which is `hinge`; the two divisions by 2048 are Spec's `mean_of_means`.
-/
import proofs.«100635_j75943611728236_2_alg».proof.Proof.Gen.ReferenceIdeal.Read
import proofs.«100635_j75943611728236_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Triplet

variable (x0 x1 : Mat)

/-- The own distance of sketch `j`. -/
theorem ref_dist (j : Fin 2048) : val_main_v3 (F := Ideal) x0 x1 (ix1 j) = dist x0 x1 j := by
  have e : ∀ k : Fin 256, idx_main_v2 (ix1 j) k = ix2 j k := fun k =>
    funext fun a => Fin.ext (by match a with | ⟨0, _⟩ => rfl | ⟨1, _⟩ => rfl)
  rw [val_main_v3_apply, val_main_v2_apply]
  simp only [e, val_main_v1_apply, val_main_v0_apply, val_main_cst_apply, Ideal.hostUnary_sqrt_def, Ideal.subf_def,
    Ideal.mulf_def, Ideal.ofBits_def, ofBits_zero, zero_add]
  rfl

/-- The squared length of sketch `j`. -/
theorem ref_sq_sketch (j : Fin 2048) : val_main_v5 (F := Ideal) x0 (ix1 j) = sq x0 j := by
  have e : ∀ k : Fin 256, idx_main_v5 (ix1 j) k = ix2 j k := fun k =>
    funext fun a => Fin.ext (by match a with | ⟨0, _⟩ => rfl | ⟨1, _⟩ => rfl)
  rw [val_main_v5_apply]
  simp only [e, val_main_v4_apply, val_main_cst_0_apply, Ideal.mulf_def, Ideal.ofBits_def, ofBits_zero, zero_add]
  rfl

/-- The squared length of photo `i`. -/
theorem ref_sq_photo (i : Fin 2048) : val_main_v7 (F := Ideal) x1 (ix1 i) = sq x1 i := by
  have e : ∀ k : Fin 256, idx_main_v7 (ix1 i) k = ix2 i k := fun k =>
    funext fun a => Fin.ext (by match a with | ⟨0, _⟩ => rfl | ⟨1, _⟩ => rfl)
  rw [val_main_v7_apply]
  simp only [e, val_main_v6_apply, val_main_cst_1_apply, Ideal.mulf_def, Ideal.ofBits_def, ofBits_zero, zero_add]
  rfl

/-- The inner product of photo `i` and sketch `j`. -/
theorem ref_cross (i j : Fin 2048) : val_main_v8 (F := Ideal) x0 x1 (ix2 i j) = cross x0 x1 i j := by
  have el : ∀ k : Fin 256, lidx_main_v8 (ix2 i j) k = ix2 i k := fun k =>
    funext fun a => Fin.ext (by match a with | ⟨0, _⟩ => rfl | ⟨1, _⟩ => rfl)
  have er : ∀ k : Fin 256, ridx_main_v8 (ix2 i j) k = ix2 j k := fun k =>
    funext fun a => Fin.ext (by match a with | ⟨0, _⟩ => rfl | ⟨1, _⟩ => rfl)
  rw [val_main_v8_apply]
  simp only [el, er]
  rfl

/-- The far distance from photo `i` to sketch `j`. -/
theorem ref_far (i j : Fin 2048) : val_main_v19 (F := Ideal) x0 x1 (ix2 i j) = far x0 x1 i j := by
  have e9 : idx_main_v9 (idx_main_v11 (ix2 i j)) = ix1 i :=
    funext fun a => Fin.ext (by match a with | ⟨0, _⟩ => rfl)
  have e10 : idx_main_v10 (idx_main_v12 (ix2 i j)) = ix1 j :=
    funext fun a => Fin.ext (by match a with | ⟨0, _⟩ => rfl)
  rw [val_main_v19_apply, val_main_v18_apply, val_main_v16_apply, val_main_v13_apply, val_main_v15_apply,
    val_main_v11_apply, val_main_v9_apply, val_main_v12_apply, val_main_v10_apply, val_main_v14_apply,
    val_main_v17_apply, e9, e10, ref_sq_photo, ref_sq_sketch, ref_cross]
  simp only [val_main_cst_2_apply, val_main_cst_3_apply, Ideal.hostUnary_sqrt_def, Ideal.subf_def, Ideal.mulf_def,
    Ideal.addf_def, Ideal.maximumf_def, Ideal.ofBits_def, ofBits_zero]
  rfl

/-- The complement of the identity matrix at `(i, j)`. -/
theorem ref_mask (i j : Fin 2048) :
    val_main_v32 (F := Ideal) (ix2 i j) = 1 - (if i = j then (1 : EReal) else 0) := by
  rw [val_main_v32_apply, val_main_v31_apply, val_main_v30_apply, val_main_v29_apply, val_main_v28_apply,
    val_main_v27_apply, val_main_v25_apply, val_main_v26_apply]
  simp only [val_main_cst_5_apply, val_main_c_apply, Ideal.subf_def, Ideal.ofBits_def, ofBits_one]
  show 1 - ((((IntOp.cmpi .eq (IntOp.addi (BitVec.ofNat 32 i.val) 0#32) (BitVec.ofNat 32 j.val)).toNat : ℝ)) : EReal) = _
  have hb : IntOp.cmpi .eq (IntOp.addi (BitVec.ofNat 32 i.val) 0#32) (BitVec.ofNat 32 j.val)
      = if i = j then 1#1 else 0#1 := by
    unfold IntOp.cmpi IntOp.addi
    have hi := i.isLt
    have hj := j.isLt
    by_cases h : i = j
    · subst h; simp
    · have hne : i.val ≠ j.val := fun e => h (Fin.ext e)
      have hbv : BitVec.ofNat 32 i.val ≠ BitVec.ofNat 32 j.val := by
        intro e
        have := congrArg BitVec.toNat e
        simp only [BitVec.toNat_ofNat] at this
        omega
      have hb' : (BitVec.ofNat 32 i.val == BitVec.ofNat 32 j.val) = false := beq_eq_false_iff_ne.mpr hbv
      simp [h, hb']
  rw [hb]
  by_cases h : i = j
  · rw [if_pos h, if_pos h]; simp
  · rw [if_neg h, if_neg h]; simp

/-- One entry of the table, the reference's way. -/
theorem ref_entry (i j : Fin 2048) : val_main_v34 (F := Ideal) x0 x1 (ix2 i j) = hingeMul x0 x1 i j := by
  have e20 : idx_main_v20 (idx_main_v21 (ix2 i j)) = ix1 j :=
    funext fun a => Fin.ext (by match a with | ⟨0, _⟩ => rfl)
  rw [val_main_v34_apply, val_main_v33_apply, val_main_v24_apply, val_main_v22_apply, val_main_v21_apply,
    val_main_v20_apply, val_main_v23_apply, val_main_call0_v0_apply, e20, ref_dist, ref_far, ref_mask]
  simp only [val_main_cst_4_apply, val_main_call0_cst_apply, Ideal.subf_def, Ideal.mulf_def, Ideal.addf_def,
    Ideal.maximumf_def, Ideal.ofBits_def, ofBits_zero]
  rfl

/-- One row's total, from the zero word. -/
theorem ref_row (i : Fin 2048) :
    val_main_v35 (F := Ideal) x0 x1 (ix1 i) = Ideal.ofBits .f32 0x00000000#32 + ∑ j : Fin 2048, hingeMul x0 x1 i j := by
  have e : ∀ k : Fin 2048, idx_main_v35 (ix1 i) k = ix2 i k := fun k =>
    funext fun a => Fin.ext (by match a with | ⟨0, _⟩ => rfl | ⟨1, _⟩ => rfl)
  rw [val_main_v35_apply]
  simp only [e, ref_entry, val_main_cst_6_apply, Ideal.ofBits_def]

/-- The reference's result is the loss. -/
theorem ref_loss (i : S_.Idx) : val_main_v39 (F := Ideal) x0 x1 i = loss x0 x1 := by
  rw [val_main_v39_apply, val_main_v38_apply, sum_idx1]
  simp only [val_main_cst_9_apply, val_main_cst_8_apply, val_main_v37_apply, val_main_v36_apply, val_main_cst_7_apply,
    Ideal.hostDivf_def, Ideal.ofBits_def, ref_row]
  exact mean_of_means x0 x1 (fun i => ∑ j : Fin 2048, hingeMul x0 x1 i j)
    (fun i => Finset.sum_congr rfl fun j _ => hingeMul_eq_hinge x0 x1 i j)

end Cert.ReferenceIdeal.RefValue

end
-- ==== Proof.lean ====
/-
  The triplet loss with Euclidean distances: a kernel program of two pipelined regions and six host lines against its
  plain reference, over 2048 sketches and 2048 photos of 256 entries.

  Both programs compute, on the extended reals, the mean over all pairs (photo i, sketch j), i ≠ j, of
  `max(dist j + margin − far i j, 0)`, where `dist j` is the distance from sketch `j` to its own photo and `far i j` the
  distance from photo `i` to sketch `j` taken by the expanded square `|p_i|² + |s_j|² − 2·p_i·s_j` cut at zero
  (Proof/Spec.lean: `loss`). They differ in three places, none of which matters on the extended reals and none of which
  needs the inputs to be finite:
    · the margin is added to `dist` before `far` is subtracted, or after — addition is commutative and associative;
    · the diagonal is cleared by a selection, or by a product with `1 − eye` — `x · 0 = 0` and `x · 1 = x` for every `x`;
    · the grand total is divided by 2048² once (four tile totals of 512 rows each, summed on the host), or the rows'
      means are averaged — a non-negative real multiplier distributes over any finite sum.
  The kernel program's value is read off its run: region 0's two rows and region 1's table of tile totals are what their
  grid points write back (Proof/KernelValue.lean over Proof/Payloads.lean), the host lines fold the table into the result.
  The reference's value is its generated run read one operation at a time (Proof/RefValue.lean).
  The idealization rewrote nothing, so `preserves` has nothing to state.
-/
import proofs.«100635_j75943611728236_2_alg».proof.Defs
import proofs.«100635_j75943611728236_2_alg».proof.Proof.Gen.Kernel
import proofs.«100635_j75943611728236_2_alg».proof.Proof.Gen.KernelIdeal
import proofs.«100635_j75943611728236_2_alg».proof.Proof.Gen.ReferenceIdeal
import proofs.«100635_j75943611728236_2_alg».proof.Proof.Gen.Pre_finite_inputs
import proofs.«100635_j75943611728236_2_alg».proof.Proof.Gen.ReferenceIdeal.Run
import proofs.«100635_j75943611728236_2_alg».proof.Proof.FrameKernel
import proofs.«100635_j75943611728236_2_alg».proof.Proof.FrameKernelIdeal
import proofs.«100635_j75943611728236_2_alg».proof.Proof.KernelRun
import proofs.«100635_j75943611728236_2_alg».proof.Proof.KernelValue
import proofs.«100635_j75943611728236_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : Cert.frame_Kernel (hKernel := Cert.Kernel.Gen.facts) (hPre_finite_inputs := Cert.Pre_finite_inputs.Gen.facts) :=
  fun m ρ _ => Cert.Kernel.GenP.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The reference is host operations only: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both idealized programs end with the loss of the arguments in their result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Triplet.loss (Cert.KernelIdeal.Arrays.sk m c) (Cert.KernelIdeal.Arrays.ph m c), ?_, ?_⟩
  · exact (θ_run Cert.KernelIdeal.defs _ _).mono
      (fun r h c => ⟨(h c).1.trans (Cert.KernelIdeal.Arrays.result_eq m ρ c), (h c).2⟩)
      (Cert.KernelIdeal.Whole.run_value m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v39_eq, (hagree c).1, (hagree c).2]
    exact funext fun i => Cert.ReferenceIdeal.RefValue.ref_loss _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
